-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1x1024 : Shape := ⟨2, ![1, 1024]⟩
abbrev S1024x1 : Shape := ⟨2, ![1024, 1]⟩
abbrev S1x1 : Shape := ⟨2, ![1, 1]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg4 : FVec F S1024x1 .f32) (main_arg5 : FVec F S1x1 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x1 .f32 := Host.absf main_arg4
  let main_cst_6 : FVec F S_ .f32 := constant S_ .f32 0x7F800000#32
  let main_v20 : FVec F S1024x1 .f32 := broadcastInDim S1024x1 ![] bcast_S_S1024x1 main_cst_6
  let main_v21 : IVec S1024x1 1 := cmpf .olt main_v19 main_v20
  let main_c_7 : IVec S_ 1 := constantI S_ 1 1#1
  let main_v22 : IVec S_ 1 := (fun x v => Host.reduce IntOp.andi x v reducesTo_S1024x1_S_d0_1 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S2048x1024 .f32) (main_arg3 : FVec F S1x1024 .f32) (main_arg4 : FVec F S1024x1 .f32) (main_arg5 : FVec F S1x1 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Kernel.lean ====
abbrev S8192x1024 : Shape := ⟨2, ![8192, 1024]⟩
abbrev S2048x1024 : Shape := ⟨2, ![2048, 1024]⟩
abbrev S1x1024 : Shape := ⟨2, ![1, 1024]⟩
abbrev S1024x1 : Shape := ⟨2, ![1024, 1]⟩
abbrev S1x1 : Shape := ⟨2, ![1, 1]⟩
abbrev S_ : Shape := ⟨0, ![]⟩
abbrev S1024x128 : Shape := ⟨2, ![1024, 128]⟩
abbrev S1x128 : Shape := ⟨2, ![1, 128]⟩
abbrev S1024x1024 : Shape := ⟨2, ![1024, 1024]⟩
abbrev S8192x128 : Shape := ⟨2, ![8192, 128]⟩
abbrev S8192x1 : Shape := ⟨2, ![8192, 1]⟩

abbrev nBuf : Space → Nat
  | .hbm => 25
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x1024, .f32⟩
  | .hbm, ⟨3, _⟩ => ⟨S1x1024, .f32⟩
  | .hbm, ⟨4, _⟩ => ⟨S1024x1, .f32⟩
  | .hbm, ⟨5, _⟩ => ⟨S1x1, .f32⟩
  | .hbm, ⟨6, _⟩ => ⟨S_, .i32⟩
  | .hbm, ⟨7, _⟩ => ⟨S_, .f32⟩
  | .hbm, ⟨8, _⟩ => ⟨S2048x1024, .f32⟩
  | .hbm, ⟨9, _⟩ => ⟨S2048x1024, .bf16⟩
  | .hbm, ⟨10, _⟩ => ⟨S_, .i32⟩
  | .hbm, ⟨11, _⟩ => ⟨S_, .f32⟩
  | .hbm, ⟨12, _⟩ => ⟨S1x1024, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S1024x1024, .bf16⟩
  | .hbm, ⟨21, _⟩ => ⟨S1024x1024, .bf16⟩
  | .hbm, ⟨22, _⟩ => ⟨S8192x128, .f32⟩
  | .hbm, ⟨23, _⟩ => ⟨S8192x1024, .f32⟩
  | .hbm, ⟨24, _⟩ => ⟨S8192x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x128, .bf16⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S1024x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_c_1 : Ref sig .tc := ⟨.hbm, 13, rfl⟩
abbrev main_call2_v0 : Ref sig .tc := ⟨.hbm, 14, rfl⟩
abbrev main_v3 : Ref sig .tc := ⟨.hbm, 15, rfl⟩
abbrev main_v4 : Ref sig .tc := ⟨.hbm, 16, rfl⟩
abbrev main_c_2 : Ref sig .tc := ⟨.hbm, 17, rfl⟩
abbrev main_call3_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  pads_S2048x1024_S2048x1024_000_000 : S2048x1024.Pads (![0, 0] : Fin 2 → Nat) ![0, 0] ![0, 0] S2048x1024
  h_S_ : 0 < S_.numel
  bitsLt_bf16_f32 : FTy.bits .bf16 < FTy.bits .f32
  pads_S1x1024_S1x1024_000_000 : S1x1024.Pads (![0, 0] : Fin 2 → Nat) ![0, 0] ![0, 0] S1x1024
  pads_S1024x1_S1024x128_000_01270 : S1024x1.Pads (![0, 0] : Fin 2 → Nat) ![0, 127] ![0, 0] S1024x128
  pads_S1x1_S1x128_000_01270 : S1x1.Pads (![0, 0] : Fin 2 → Nat) ![0, 127] ![0, 0] S1x128
  slices_S2048x1024_S1024x1024_0_0 : S2048x1024.Slices ![0, 0] S1024x1024
  slices_S2048x1024_S1024x1024_1024_0 : S2048x1024.Slices ![1024, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S8192x128_S8192x1_0_0 : S8192x128.Slices ![0, 0] S8192x1
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .bf16 = 32 ∨ (Rect.block (s := S1024x128) S1024x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S8192x128.size a
  hwx0_7 : ∀ i : grid0.Coords, EltTy.bits .f32 = 32 ∨ (Rect.block (s := S8192x128) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S8192x1024.size a
  hwx0_8 : ∀ i : grid0.Coords, EltTy.bits .f32 = 32 ∨ (Rect.block (s := S8192x1024) S1024x1024.size (cc0_transform_8 i) (hinb0_8 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1x1024 : Shape := ⟨2, ![1, 1024]⟩
abbrev S1024x1 : Shape := ⟨2, ![1024, 1]⟩
abbrev S1x1 : Shape := ⟨2, ![1, 1]⟩
abbrev S_ : Shape := ⟨0, ![]⟩
abbrev S1024x128 : Shape := ⟨2, ![1024, 128]⟩
abbrev S1x128 : Shape := ⟨2, ![1, 128]⟩
abbrev S1024x1024 : Shape := ⟨2, ![1024, 1024]⟩
abbrev S8192x128 : Shape := ⟨2, ![8192, 128]⟩
abbrev S512x1024 : Shape := ⟨2, ![512, 1024]⟩
abbrev S512x128 : Shape := ⟨2, ![512, 128]⟩
abbrev S8192x1 : Shape := ⟨2, ![8192, 1]⟩

abbrev nBuf : Space → Nat
  | .hbm => 23
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x1024, .f32⟩
  | .hbm, ⟨3, _⟩ => ⟨S1x1024, .f32⟩
  | .hbm, ⟨4, _⟩ => ⟨S1024x1, .f32⟩
  | .hbm, ⟨5, _⟩ => ⟨S1x1, .f32⟩
  | .hbm, ⟨6, _⟩ => ⟨S_, .i32⟩
  | .hbm, ⟨7, _⟩ => ⟨S_, .f32⟩
  | .hbm, ⟨8, _⟩ => ⟨S2048x1024, .f32⟩
  | .hbm, ⟨9, _⟩ => ⟨S_, .i32⟩
  | .hbm, ⟨10, _⟩ => ⟨S_, .f32⟩
  | .hbm, ⟨11, _⟩ => ⟨S1x1024, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S1024x1024, .f32⟩
  | .hbm, ⟨19, _⟩ => ⟨S1024x1024, .f32⟩
  | .hbm, ⟨20, _⟩ => ⟨S8192x128, .f32⟩
  | .hbm, ⟨21, _⟩ => ⟨S8192x1024, .f32⟩
  | .hbm, ⟨22, _⟩ => ⟨S8192x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x128, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_c_2 : Ref sig .tc := ⟨.hbm, 15, rfl⟩
abbrev main_call3_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  pads_S2048x1024_S2048x1024_000_000 : S2048x1024.Pads (![0, 0] : Fin 2 → Nat) ![0, 0] ![0, 0] S2048x1024
  h_S_ : 0 < S_.numel
  pads_S1x1024_S1x1024_000_000 : S1x1024.Pads (![0, 0] : Fin 2 → Nat) ![0, 0] ![0, 0] S1x1024
  pads_S1024x1_S1024x128_000_01270 : S1024x1.Pads (![0, 0] : Fin 2 → Nat) ![0, 127] ![0, 0] S1024x128
  pads_S1x1_S1x128_000_01270 : S1x1.Pads (![0, 0] : Fin 2 → Nat) ![0, 127] ![0, 0] S1x128
  slices_S2048x1024_S1024x1024_0_0 : S2048x1024.Slices ![0, 0] S1024x1024
  slices_S2048x1024_S1024x1024_1024_0 : S2048x1024.Slices ![1024, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S512x1024 : S1x1024.Broadcasts S512x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S8192x128_S8192x1_0_0 : S8192x128.Slices ![0, 0] S8192x1
  dot_S512x1024_S1024x1024_S512x1024_1_0_0_1_n_n_wf : DotDims.WF S512x1024 S1024x1024 S512x1024 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S8192x128.size a
  hwx0_7 : ∀ i : grid0.Coords, EltTy.bits .f32 = 32 ∨ (Rect.block (s := S8192x128) S512x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .f32 = 32 ∨ (Rect.block (s := S8192x1024) S512x1024.size (cc0_transform_8 i) (hinb0_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S512x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.TwoLayer.lean ====
/-
  A two-layer discriminator head on the extended reals, written once for every program that computes it.

  Inputs Z, R of 8192 rows and 1024 features; first-layer weights in two halves Wa, Wb (1024 x 1024 each, the half for Z
  and the half for R) and bias b (one row); second-layer weights W2 (1024 x 128, only column 0 is a real output) and
  bias b2 (one row of 128). Row r of the hidden layer is
      mid(r, c) = leaky( sum_k Z(r,k) Wa(k,c) + sum_k R(r,k) Wb(k,c) + b(c) ),
  leaky(h) = h where h >= 0 and 0.2f * h elsewhere, and the logits are
      out(r, l) = sum_k mid(r,k) W2(k,l) + b2(l).
  Each row of the result depends on the same row of Z and R alone, so a block of rows of the result is computed from the
  same block of rows of the inputs: the lemmas below read a block's computation at one entry, generic in the number of
  rows in the block, and the whole-array functions `midOf` / `logitsOf` are what every block is a restriction of.
-/
import Idealize.ShloMosaic.Lib.ValueIdx
import Idealize.ShloMosaic.Lib.ValueLayout
import Idealize.ShloMosaic.PureOps.Ideal.Laws
import proofs.«145618_g2000403079759722_pallasbulk_259_2_alg».proof.Proof.LibPlainMatmul

noncomputable section

namespace Cert.TwoLayer

open Idealize.ShloMosaic Idealize.ShloMosaic.ValueIdx

/-- The leaky rectifier on a whole vector, as both programs spell it: compare with zero, multiply by the single-precision
    constant nearest 0.2, choose. -/
def leakyV {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

/-- The leaky rectifier of one extended real: the vector form on the one-entry array. -/
def leaky (h : EReal) : EReal := leakyV (s := ⟨0, ![]⟩) (fun _ => h) ix0

/-- The vector form acts entry by entry. -/
theorem leakyV_apply {s : Shape} (v : FVec Ideal s .f32) (i : s.Idx) : leakyV v i = leaky (v i) := rfl

/-- The hidden layer on a block of `B` rows, read at row `p` and column `q`: the two products into zero accumulators
    are plain sums over the 1024 features, the bias row is repeated down the rows, and the rectifier acts on the entry. -/
theorem hidden_block_apply {B K N : ℕ} {φ₁ φ₂ : FTy} (D : DotDims ⟨2, ![B, K]⟩ ⟨2, ![K, N]⟩ ⟨2, ![B, N]⟩)
    (hD : D = DotDims.plain B K N) (prec : Option ContractPrecision)
    (x0 x1 : FVec Ideal ⟨2, ![B, K]⟩ φ₁) (x2 x3 : FVec Ideal ⟨2, ![K, N]⟩ φ₂) (x4 : FVec Ideal ⟨2, ![1, N]⟩ .f32)
    (hb : (⟨2, ![1, N]⟩ : Shape).Broadcasts ⟨2, ![B, N]⟩) (p : Fin B) (q : Fin N) :
    leakyV (addf (addf (matmul D prec x0 x2 (constant (F := Ideal) ⟨2, ![B, N]⟩ .f32 0x00000000#32))
        (matmul D prec x1 x3 (constant (F := Ideal) ⟨2, ![B, N]⟩ .f32 0x00000000#32))) (broadcastTo ⟨2, ![B, N]⟩ x4 hb)) (ix2 p q)
      = leaky ((∑ k : Fin K, x0 (ix2 p k) * x2 (ix2 k q)) + (∑ k : Fin K, x1 (ix2 p k) * x3 (ix2 k q)) + x4 (ix2 (0 : Fin 1) q)) := by
  subst hD
  rw [leakyV_apply, addf_apply, addf_apply, Cert.LibPlainMatmul.matmul_plain_zero_apply,
    Cert.LibPlainMatmul.matmul_plain_zero_apply, broadcastTo_1b_ab_apply]

/-- The output layer on a block of `B` rows, read at row `p` and column `l`. -/
theorem output_block_apply {B K N : ℕ} {φ₁ φ₂ : FTy} (D : DotDims ⟨2, ![B, K]⟩ ⟨2, ![K, N]⟩ ⟨2, ![B, N]⟩)
    (hD : D = DotDims.plain B K N) (prec : Option ContractPrecision)
    (y : FVec Ideal ⟨2, ![B, K]⟩ φ₁) (x5 : FVec Ideal ⟨2, ![K, N]⟩ φ₂) (x6 : FVec Ideal ⟨2, ![1, N]⟩ .f32)
    (hb : (⟨2, ![1, N]⟩ : Shape).Broadcasts ⟨2, ![B, N]⟩) (p : Fin B) (l : Fin N) :
    addf (matmul D prec y x5 (constant (F := Ideal) ⟨2, ![B, N]⟩ .f32 0x00000000#32)) (broadcastTo ⟨2, ![B, N]⟩ x6 hb) (ix2 p l)
      = (∑ k : Fin K, y (ix2 p k) * x5 (ix2 k l)) + x6 (ix2 (0 : Fin 1) l) := by
  subst hD
  rw [addf_apply, Cert.LibPlainMatmul.matmul_plain_zero_apply, broadcastTo_1b_ab_apply]

/-! ## The whole arrays -/

/-- The hidden layer of all 8192 rows, from the input arrays and the weight arrays as a launch finds them. -/
def midOf (A0 A1 : (⟨2, ![8192, 1024]⟩ : Shape).Idx → EReal) (Wa Wb : (⟨2, ![1024, 1024]⟩ : Shape).Idx → EReal)
    (bp : (⟨2, ![1, 1024]⟩ : Shape).Idx → EReal) : (⟨2, ![8192, 1024]⟩ : Shape).Idx → EReal :=
  fun i => leaky ((∑ k : Fin 1024, A0 (ix2 (i 0) k) * Wa (ix2 k (i 1))) + (∑ k : Fin 1024, A1 (ix2 (i 0) k) * Wb (ix2 k (i 1)))
    + bp (ix2 (0 : Fin 1) (i 1)))

/-- The logits of all rows in their 128 padded columns, from a hidden layer and the padded second-layer weights. -/
def logitsOf (Mid : (⟨2, ![8192, 1024]⟩ : Shape).Idx → EReal) (W2p : (⟨2, ![1024, 128]⟩ : Shape).Idx → EReal)
    (b2p : (⟨2, ![1, 128]⟩ : Shape).Idx → EReal) : (⟨2, ![8192, 128]⟩ : Shape).Idx → EReal :=
  fun i => (∑ k : Fin 1024, Mid (ix2 (i 0) k) * W2p (ix2 k (i 1))) + b2p (ix2 (0 : Fin 1) (i 1))

/-- A block's hidden entry is the whole hidden layer's entry at the row the block's row stands for: if row `p` of the
    two input blocks is row `P` of the two input arrays, the same sums and the same bias entry are read. -/
theorem hidden_restrict {B : ℕ} (x0 x1 : (⟨2, ![B, 1024]⟩ : Shape).Idx → EReal)
    (A0 A1 : (⟨2, ![8192, 1024]⟩ : Shape).Idx → EReal) (Wa Wb : (⟨2, ![1024, 1024]⟩ : Shape).Idx → EReal)
    (bp : (⟨2, ![1, 1024]⟩ : Shape).Idx → EReal) (p : Fin B) (P : Fin 8192) (Q : Fin 1024)
    (h0 : ∀ k : Fin 1024, x0 (ix2 p k) = A0 (ix2 P k)) (h1 : ∀ k : Fin 1024, x1 (ix2 p k) = A1 (ix2 P k)) :
    leaky ((∑ k : Fin 1024, x0 (ix2 p k) * Wa (ix2 k Q)) + (∑ k : Fin 1024, x1 (ix2 p k) * Wb (ix2 k Q)) + bp (ix2 (0 : Fin 1) Q))
      = midOf A0 A1 Wa Wb bp (ix2 P Q) := by
  simp only [h0, h1]
  rfl

/-- The same for a block of the logits over a block of the hidden layer. -/
theorem logits_restrict {B : ℕ} (y : (⟨2, ![B, 1024]⟩ : Shape).Idx → EReal) (Mid : (⟨2, ![8192, 1024]⟩ : Shape).Idx → EReal)
    (W2p : (⟨2, ![1024, 128]⟩ : Shape).Idx → EReal) (b2p : (⟨2, ![1, 128]⟩ : Shape).Idx → EReal) (p : Fin B) (P : Fin 8192) (L : Fin 128)
    (h : ∀ k : Fin 1024, y (ix2 p k) = Mid (ix2 P k)) :
    (∑ k : Fin 1024, y (ix2 p k) * W2p (ix2 k L)) + b2p (ix2 (0 : Fin 1) L) = logitsOf Mid W2p b2p (ix2 P L) := by
  simp only [h]
  rfl

/-- Rows 0 .. 1023 of the first-layer weight matrix: the half that multiplies Z. -/
def upperHalf (W1 : (⟨2, ![2048, 1024]⟩ : Shape).Idx → EReal) : (⟨2, ![1024, 1024]⟩ : Shape).Idx → EReal :=
  fun i => W1 (ix2 (⟨(i 0).val, by have := idx2_lt0 i; omega⟩ : Fin 2048) (i 1))

/-- Rows 1024 .. 2047: the half that multiplies R. -/
def lowerHalf (W1 : (⟨2, ![2048, 1024]⟩ : Shape).Idx → EReal) : (⟨2, ![1024, 1024]⟩ : Shape).Idx → EReal :=
  fun i => W1 (ix2 (⟨1024 + (i 0).val, by have := idx2_lt0 i; omega⟩ : Fin 2048) (i 1))

/-- The hidden layer as a function of the six arguments. -/
def midG (Z R : (⟨2, ![8192, 1024]⟩ : Shape).Idx → EReal) (W1 : (⟨2, ![2048, 1024]⟩ : Shape).Idx → EReal)
    (b1 : (⟨2, ![1, 1024]⟩ : Shape).Idx → EReal) : (⟨2, ![8192, 1024]⟩ : Shape).Idx → EReal :=
  midOf Z R (upperHalf W1) (lowerHalf W1) b1

/-- The one real logit per row as a function of the six arguments. -/
def logitG (Z R : (⟨2, ![8192, 1024]⟩ : Shape).Idx → EReal) (W1 : (⟨2, ![2048, 1024]⟩ : Shape).Idx → EReal)
    (b1 : (⟨2, ![1, 1024]⟩ : Shape).Idx → EReal) (W2 : (⟨2, ![1024, 1]⟩ : Shape).Idx → EReal) (b2 : (⟨2, ![1, 1]⟩ : Shape).Idx → EReal) :
    (⟨2, ![8192, 1]⟩ : Shape).Idx → EReal :=
  fun i => (∑ k : Fin 1024, midG Z R W1 b1 (ix2 (i 0) k) * W2 (ix2 k (0 : Fin 1))) + b2 (ix2 (0 : Fin 1) (0 : Fin 1))

/-- Column 0 of the padded logits is the real logit: the padded weights and bias agree with the unpadded ones there,
    and the padding columns are never read. -/
theorem logits_col0 (Mid : (⟨2, ![8192, 1024]⟩ : Shape).Idx → EReal) (W2p : (⟨2, ![1024, 128]⟩ : Shape).Idx → EReal)
    (b2p : (⟨2, ![1, 128]⟩ : Shape).Idx → EReal) (W2 : (⟨2, ![1024, 1]⟩ : Shape).Idx → EReal) (b2 : (⟨2, ![1, 1]⟩ : Shape).Idx → EReal)
    (hW : ∀ k : Fin 1024, W2p (ix2 k (0 : Fin 128)) = W2 (ix2 k (0 : Fin 1)))
    (hb : b2p (ix2 (0 : Fin 1) (0 : Fin 128)) = b2 (ix2 (0 : Fin 1) (0 : Fin 1)))
    (hs : (⟨2, ![8192, 128]⟩ : Shape).Slices ![0, 0] ⟨2, ![8192, 1]⟩) :
    extractStridedSlice ⟨2, ![8192, 1]⟩ ![0, 0] (logitsOf Mid W2p b2p) hs
      = fun i => (∑ k : Fin 1024, Mid (ix2 (i 0) k) * W2 (ix2 k (0 : Fin 1))) + b2 (ix2 (0 : Fin 1) (0 : Fin 1)) := by
  funext i
  obtain ⟨p, q, rfl⟩ : ∃ (p : Fin 8192) (q : Fin 1), i = ix2 p q := ⟨i 0, i 1, eq_ix2 i⟩
  rw [slice2_axis1_apply 0 (logitsOf Mid W2p b2p) hs p q (0 : Fin 128) (by have := q.isLt; omega)]
  show (∑ k : Fin 1024, Mid (ix2 p k) * W2p (ix2 k (0 : Fin 128))) + b2p (ix2 (0 : Fin 1) (0 : Fin 128))
    = (∑ k : Fin 1024, Mid (ix2 p k) * W2 (ix2 k (0 : Fin 1))) + b2 (ix2 (0 : Fin 1) (0 : Fin 1))
  rw [hb]
  exact congrArg (· + _) (Finset.sum_congr rfl fun k _ => by rw [hW])

end Cert.TwoLayer

end
-- ==== Proof.KernelBlock.lean ====
/-
  The idealized kernel's body on one block of 1024 rows, read at an entry.

  The body rounds its left operands to bf16 before each product; on the extended reals a change of float format is the
  identity, so the stored hidden block is the rectified sum of the two products and the bias row, and the stored logits
  block is the product of that hidden block with the padded second-layer weights plus the padded bias row.
-/
import proofs.«145618_g2000403079759722_pallasbulk_259_2_alg».proof.Proof.Gen.KernelIdeal.Skeleton
import proofs.«145618_g2000403079759722_pallasbulk_259_2_alg».proof.Proof.TwoLayer
import Idealize.ShloMosaic.Lib.Pipeline.Value

noncomputable section

namespace Cert.KernelIdeal.Blocks

open Cert.KernelIdeal Cert.KernelIdeal.Gen Idealize.ShloMosaic Idealize.ShloMosaic.ValueIdx Cert.TwoLayer

/-- The hidden block at row `p`, column `q`. -/
theorem hidden_apply (x0 x1 : Vec Ideal S1024x1024 .f32) (x2 x3 : Vec Ideal S1024x1024 .bf16) (x4 : Vec Ideal S1x1024 .f32)
    (p q : Fin 1024) :
    k0_pay1 (F := Ideal) x0 x1 x2 x3 x4 (ix2 p q)
      = leaky ((∑ k : Fin 1024, x0 (ix2 p k) * x2 (ix2 k q)) + (∑ k : Fin 1024, x1 (ix2 p k) * x3 (ix2 k q))
          + x4 (ix2 (0 : Fin 1) q)) := by
  unfold k0_pay1
  simp only [shapeCast_self]
  exact hidden_block_apply (φ₁ := .bf16) (φ₂ := .bf16) _ rfl none x0 x1 x2 x3 x4 _ p q

/-- The logits block at row `p`, padded column `l`, over the hidden block. -/
theorem logits_apply (x0 x1 : Vec Ideal S1024x1024 .f32) (x2 x3 : Vec Ideal S1024x1024 .bf16) (x4 : Vec Ideal S1x1024 .f32)
    (x5 : Vec Ideal S1024x128 .bf16) (x6 : Vec Ideal S1x128 .f32) (p : Fin 1024) (l : Fin 128) :
    k0_pay2 (F := Ideal) x0 x1 x2 x3 x4 x5 x6 (ix2 p l)
      = (∑ k : Fin 1024, k0_pay1 (F := Ideal) x0 x1 x2 x3 x4 (ix2 p k) * x5 (ix2 k l)) + x6 (ix2 (0 : Fin 1) l) := by
  unfold k0_pay2
  simp only [shapeCast_self]
  exact output_block_apply (φ₁ := .bf16) (φ₂ := .bf16) _ rfl none (k0_pay1 (F := Ideal) x0 x1 x2 x3 x4) x5 x6 _ p l

end Cert.KernelIdeal.Blocks

end
-- ==== Proof.LibPadReads.lean ====
/-
  A host `pad` of a matrix read at an entry of the operand, at any extents and element type.

  A pad that adds nothing on any side (all low, high and interior widths zero) returns its operand. A pad that only adds
  columns on the high side reads, at row `p` and a column `Q` that is one of the operand's columns `q`, the operand at
  `(p, q)`: the padding value is never looked at there. The indices are written by coordinates, so each lemma applies to a
  printed operation by unification.
-/
import Idealize.ShloMosaic.Lib.ValueIdx
import Idealize.ShloMosaic.Lib.KernelVsHost

namespace Cert.LibPadReads

open Idealize.ShloMosaic Idealize.ShloMosaic.ValueIdx

variable {α : Type}

/-- Padding a matrix by nothing is the identity. -/
theorem pad_zero_widths {a b : ℕ} (x : (⟨2, ![a, b]⟩ : Shape).Idx → α) {u : Shape} (v : u.Idx → α)
    (h : (⟨2, ![a, b]⟩ : Shape).Pads ![0, 0] ![0, 0] ![0, 0] ⟨2, ![a, b]⟩) (hu : 0 < u.numel) :
    pad ⟨2, ![a, b]⟩ ![0, 0] ![0, 0] ![0, 0] x v h hu = x := by
  funext j
  refine pad_apply_of_inside ![0, 0] ![0, 0] ![0, 0] x v h hu j j fun ax => ?_
  match ax with
  | ⟨0, _⟩ => show (j 0).val = 0 + (j 0).val * (0 + 1); omega
  | ⟨1, _⟩ => show (j 1).val = 0 + (j 1).val * (0 + 1); omega

/-- Padding a matrix with `hi` more columns on the right reads the operand at each of the operand's own columns. -/
theorem pad_high_cols_apply {a b B hi : ℕ} (x : (⟨2, ![a, b]⟩ : Shape).Idx → α) {u : Shape} (v : u.Idx → α)
    (h : (⟨2, ![a, b]⟩ : Shape).Pads ![0, 0] ![0, hi] ![0, 0] ⟨2, ![a, B]⟩) (hu : 0 < u.numel)
    (p : Fin a) (q : Fin b) (Q : Fin B) (hQ : Q.val = q.val) :
    pad ⟨2, ![a, B]⟩ ![0, 0] ![0, hi] ![0, 0] x v h hu (ix2 p Q) = x (ix2 p q) := by
  refine pad_apply_of_inside ![0, 0] ![0, hi] ![0, 0] x v h hu (ix2 p Q) (ix2 p q) fun ax => ?_
  match ax with
  | ⟨0, _⟩ => show p.val = 0 + p.val * (0 + 1); omega
  | ⟨1, _⟩ => show Q.val = 0 + q.val * (0 + 1); omega

end Cert.LibPadReads
-- ==== Proof.KernelArrays.lean ====
/-
  What the idealized kernel's launch finds in its weight and bias arrays, as functions of the arguments.

  Before the launch the host pads the first-layer weights by nothing, rounds them to bf16 and cuts the two halves; pads the
  first bias by nothing; pads the second-layer weights and bias with 127 more columns (and rounds the weights to bf16).
  On the extended reals the rounding is the identity, so: the two halves are rows 0..1023 and 1024..2047 of the weight
  argument, the bias row is the bias argument, and column 0 of the padded second layer is the second-layer argument.
-/
import proofs.«145618_g2000403079759722_pallasbulk_259_2_alg».proof.Proof.Gen.KernelIdeal.Frame
import proofs.«145618_g2000403079759722_pallasbulk_259_2_alg».proof.Proof.TwoLayer
import proofs.«145618_g2000403079759722_pallasbulk_259_2_alg».proof.Proof.LibPadReads
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Cert.TwoLayer Cert.LibPadReads

variable (m : (ℓ : Loc nD τ sig) → Buf (Elt Ideal) ℓ)

/-- The weight half that multiplies Z: rows 0 .. 1023 of the first-layer weights. -/
theorem weights_upper (c : Dev nD) :
    (V m c main_v6 : S1024x1024.Idx → EReal) = upperHalf (m ((c : Thread nD τ).loc main_arg2)) := by
  have e : (V m c main_v6 : S1024x1024.Idx → EReal)
      = extractStridedSlice S1024x1024 ![0, 0] (truncf (F := Ideal) .bf16 (pad S2048x1024 ![0, 0] ![0, 0] ![0, 0]
          (m ((c : Thread nD τ).loc main_arg2)) (sitofp (F := Ideal) .f32 (constantI S_ 32 0#32)) pads_S2048x1024_S2048x1024_000_000 h_S_)
          bitsLt_bf16_f32) slices_S2048x1024_S1024x1024_0_0 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results; rfl
  rw [e]
  funext i
  obtain ⟨p, q, rfl⟩ : ∃ (p q : Fin 1024), i = ix2 p q := ⟨i 0, i 1, eq_ix2 i⟩
  rw [slice2_axis0_apply 0 _ slices_S2048x1024_S1024x1024_0_0 p q ⟨p.val, by have := p.isLt; omega⟩ (by simp), truncf_apply,
    pad_zero_widths]
  rfl

/-- The weight half that multiplies R: rows 1024 .. 2047. -/
theorem weights_lower (c : Dev nD) :
    (V m c main_v7 : S1024x1024.Idx → EReal) = lowerHalf (m ((c : Thread nD τ).loc main_arg2)) := by
  have e : (V m c main_v7 : S1024x1024.Idx → EReal)
      = extractStridedSlice S1024x1024 ![1024, 0] (truncf (F := Ideal) .bf16 (pad S2048x1024 ![0, 0] ![0, 0] ![0, 0]
          (m ((c : Thread nD τ).loc main_arg2)) (sitofp (F := Ideal) .f32 (constantI S_ 32 0#32)) pads_S2048x1024_S2048x1024_000_000 h_S_)
          bitsLt_bf16_f32) slices_S2048x1024_S1024x1024_1024_0 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results; rfl
  rw [e]
  funext i
  obtain ⟨p, q, rfl⟩ : ∃ (p q : Fin 1024), i = ix2 p q := ⟨i 0, i 1, eq_ix2 i⟩
  rw [slice2_axis0_apply 1024 _ slices_S2048x1024_S1024x1024_1024_0 p q ⟨1024 + p.val, by have := p.isLt; omega⟩ rfl, truncf_apply,
    pad_zero_widths]
  rfl

/-- The first bias row is the bias argument. -/
theorem bias_row (c : Dev nD) : (V m c main_v2 : S1x1024.Idx → EReal) = m ((c : Thread nD τ).loc main_arg3) := by
  have e : (V m c main_v2 : S1x1024.Idx → EReal)
      = pad S1x1024 ![0, 0] ![0, 0] ![0, 0] (m ((c : Thread nD τ).loc main_arg3)) (sitofp (F := Ideal) .f32 (constantI S_ 32 0#32))
          pads_S1x1024_S1x1024_000_000 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results; rfl
  rw [e, pad_zero_widths]

/-- Column 0 of the padded second-layer weights is the second-layer argument. -/
theorem weights2_col0 (c : Dev nD) (k : Fin 1024) :
    (V m c main_v4 : S1024x128.Idx → EReal) (ix2 k (0 : Fin 128)) = m ((c : Thread nD τ).loc main_arg4) (ix2 k (0 : Fin 1)) := by
  have e : (V m c main_v4 : S1024x128.Idx → EReal)
      = truncf (F := Ideal) .bf16 (pad S1024x128 ![0, 0] ![0, 127] ![0, 0] (m ((c : Thread nD τ).loc main_arg4))
          (sitofp (F := Ideal) .f32 (constantI S_ 32 0#32)) pads_S1024x1_S1024x128_000_01270 h_S_) bitsLt_bf16_f32 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results; rfl
  rw [e, truncf_apply]
  exact pad_high_cols_apply _ _ pads_S1024x1_S1024x128_000_01270 h_S_ k (0 : Fin 1) (0 : Fin 128) rfl

/-- Entry (0, 0) of the padded second bias is the second bias argument. -/
theorem bias2_00 (c : Dev nD) :
    (V m c main_v5 : S1x128.Idx → EReal) (ix2 (0 : Fin 1) (0 : Fin 128)) = m ((c : Thread nD τ).loc main_arg5) (ix2 (0 : Fin 1) (0 : Fin 1)) := by
  have e : (V m c main_v5 : S1x128.Idx → EReal)
      = pad S1x128 ![0, 0] ![0, 127] ![0, 0] (m ((c : Thread nD τ).loc main_arg5))
          (sitofp (F := Ideal) .f32 (constantI S_ 32 0#32)) pads_S1x1_S1x128_000_01270 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results; rfl
  rw [e]
  exact pad_high_cols_apply _ _ pads_S1x1_S1x128_000_01270 h_S_ (0 : Fin 1) (0 : Fin 1) (0 : Fin 128) rfl

/-- So the hidden layer over the arrays the launch finds is the hidden layer of the arguments. -/
theorem mid_of_arguments (c : Dev nD) :
    midOf (V m c main_arg0) (V m c main_arg1) (V m c main_v6) (V m c main_v7) (V m c main_v2)
      = midG (m ((c : Thread nD τ).loc main_arg0)) (m ((c : Thread nD τ).loc main_arg1)) (m ((c : Thread nD τ).loc main_arg2))
          (m ((c : Thread nD τ).loc main_arg3)) := by
  rw [V_main_arg0, V_main_arg1, weights_upper, weights_lower, bias_row]
  rfl

end Cert.KernelIdeal.Arrays

end
-- ==== Proof.KernelResult.lean ====
/-
  The idealized kernel's two result arrays after its run, as functions of the six arguments.

  Grid point t of 8 handles rows 1024 t .. 1024 t + 1023: it is handed those rows of Z and R and the whole weight and bias
  arrays, and writes back those rows of the hidden layer and of the padded logits. Every row of the two outputs lies in
  exactly one such block, so after the run the hidden output is the hidden layer of all rows and the padded logits output
  is the logits of all rows; the host then keeps column 0 of the padded logits.
-/
import proofs.«145618_g2000403079759722_pallasbulk_259_2_alg».proof.Proof.Gen.KernelIdeal.Frame
import proofs.«145618_g2000403079759722_pallasbulk_259_2_alg».proof.Proof.KernelBlock
import proofs.«145618_g2000403079759722_pallasbulk_259_2_alg».proof.Proof.KernelArrays
import Idealize.ShloMosaic.Lib.Pipeline.Value
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.TwoLayer

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the row-blocked windows (Z, R, both outputs) are at block row `t`, column
    block 0; the weight and bias windows are always at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The blocks a point is handed -/

/-- Row `p` of point `t`'s block of Z is row `1024 t + p` of Z. -/
theorem rows_Z (c : Dev nD) (t : Fin cfg0.N) (p : Fin 1024) (k : Fin 1024) (i : S8192x1024.Idx)
    (h0 : (i 0).val = t.val * 1024 + p.val) (h1 : (i 1).val = k.val) :
    iblk m c 0 t (ix2 p k) = V m c main_arg0 i := by
  obtain ⟨e0, e1, -, -, -, -, -, -, -, -, -, -, -, -, -, -, -, -⟩ := block_indices t
  show V m c main_arg0 (((cfg0.win 0).blk t).view.emb (ix2 p k)) = V m c main_arg0 i
  refine congrArg (V m c main_arg0) (funext fun a => Fin.ext ?_)
  match a with
  | ⟨0, _⟩ => show win0_0.index t (0 : Fin 2) * 1024 + 1 * p.val = (i 0).val; omega
  | ⟨1, _⟩ => show win0_0.index t (1 : Fin 2) * 1024 + 1 * k.val = (i 1).val; omega

/-- The same for R. -/
theorem rows_R (c : Dev nD) (t : Fin cfg0.N) (p : Fin 1024) (k : Fin 1024) (i : S8192x1024.Idx)
    (h0 : (i 0).val = t.val * 1024 + p.val) (h1 : (i 1).val = k.val) :
    iblk m c 1 t (ix2 p k) = V m c main_arg1 i := by
  obtain ⟨-, -, e0, e1, -, -, -, -, -, -, -, -, -, -, -, -, -, -⟩ := block_indices t
  show V m c main_arg1 (((cfg0.win 1).blk t).view.emb (ix2 p k)) = V m c main_arg1 i
  refine congrArg (V m c main_arg1) (funext fun a => Fin.ext ?_)
  match a with
  | ⟨0, _⟩ => show win0_1.index t (0 : Fin 2) * 1024 + 1 * p.val = (i 0).val; omega
  | ⟨1, _⟩ => show win0_1.index t (1 : Fin 2) * 1024 + 1 * k.val = (i 1).val; omega

/-- Every point is handed the whole upper weight half, -/
theorem whole_upper (c : Dev nD) (t : Fin cfg0.N) : (iblk m c 2 t : S1024x1024.Idx → EReal) = V m c main_v6 := by
  obtain ⟨-, -, -, -, e0, e1, -, -, -, -, -, -, -, -, -, -, -, -⟩ := block_indices t
  funext y
  show V m c main_v6 (((cfg0.win 2).blk t).view.emb y) = V m c main_v6 y
  refine congrArg (V m c main_v6) (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- the whole lower weight half, -/
theorem whole_lower (c : Dev nD) (t : Fin cfg0.N) : (iblk m c 3 t : S1024x1024.Idx → EReal) = V m c main_v7 := by
  obtain ⟨-, -, -, -, -, -, e0, e1, -, -, -, -, -, -, -, -, -, -⟩ := block_indices t
  funext y
  show V m c main_v7 (((cfg0.win 3).blk t).view.emb y) = V m c main_v7 y
  refine congrArg (V m c main_v7) (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- the whole first bias row, -/
theorem whole_bias (c : Dev nD) (t : Fin cfg0.N) : (iblk m c 4 t : S1x1024.Idx → EReal) = V m c main_v2 := by
  obtain ⟨-, -, -, -, -, -, -, -, e0, e1, -, -, -, -, -, -, -, -⟩ := block_indices t
  funext y
  show V m c main_v2 (((cfg0.win 4).blk t).view.emb y) = V m c main_v2 y
  refine congrArg (V m c main_v2) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- the whole padded second-layer weights, -/
theorem whole_weights2 (c : Dev nD) (t : Fin cfg0.N) : (iblk m c 5 t : S1024x128.Idx → EReal) = V m c main_v4 := by
  obtain ⟨-, -, -, -, -, -, -, -, -, -, e0, e1, -, -, -, -, -, -⟩ := block_indices t
  funext y
  show V m c main_v4 (((cfg0.win 5).blk t).view.emb y) = V m c main_v4 y
  refine congrArg (V m c main_v4) (funext fun a => Fin.ext ?_)
  match a with
  | ⟨0, _⟩ => show win0_5.index t (0 : Fin 2) * 1024 + 1 * (y 0).val = (y 0).val; omega
  | ⟨1, _⟩ => show win0_5.index t (1 : Fin 2) * 128 + 1 * (y 1).val = (y 1).val; omega

/-- and the whole padded second bias row. -/
theorem whole_bias2 (c : Dev nD) (t : Fin cfg0.N) : (iblk m c 6 t : S1x128.Idx → EReal) = V m c main_v5 := by
  obtain ⟨-, -, -, -, -, -, -, -, -, -, -, -, e0, e1, -, -, -, -⟩ := block_indices t
  funext y
  show V m c main_v5 (((cfg0.win 6).blk t).view.emb y) = V m c main_v5 y
  refine congrArg (V m c main_v5) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-! ## What a point computes is a block of the whole arrays -/

/-- Entry (p, q) of the hidden block point `t` computes is entry (1024 t + p, q) of the hidden layer of all rows. -/
theorem hidden_rows (c : Dev nD) (t : Fin cfg0.N) (p : Fin 1024) (q : Fin 1024) (P : Fin 8192) (Q : Fin 1024)
    (h0 : P.val = t.val * 1024 + p.val) (h1 : Q.val = q.val) :
    k0_pay1 (F := Ideal) (iblk m c 0 t) (iblk m c 1 t) (iblk m c 2 t) (iblk m c 3 t) (iblk m c 4 t) (ix2 p q) = (midOf (V m c main_arg0) (V m c main_arg1) (V m c main_v6) (V m c main_v7) (V m c main_v2)) (ix2 P Q) := by
  obtain rfl : Q = q := Fin.ext h1
  refine (Blocks.hidden_apply (iblk m c 0 t) (iblk m c 1 t) (iblk m c 2 t) (iblk m c 3 t) (iblk m c 4 t) p Q).trans ?_
  rw [whole_upper m c t, whole_lower m c t, whole_bias m c t]
  exact hidden_restrict (iblk m c 0 t) (iblk m c 1 t) (V m c main_arg0) (V m c main_arg1) (V m c main_v6) (V m c main_v7) (V m c main_v2) p P Q
    (fun k => rows_Z m c t p k (ix2 P k) h0 rfl) (fun k => rows_R m c t p k (ix2 P k) h0 rfl)

/-- Entry (p, l) of the logits block point `t` computes is entry (1024 t + p, l) of the padded logits of all rows. -/
theorem logits_rows (c : Dev nD) (t : Fin cfg0.N) (p : Fin 1024) (l : Fin 128) (P : Fin 8192) (L : Fin 128)
    (h0 : P.val = t.val * 1024 + p.val) (h1 : L.val = l.val) :
    k0_pay2 (F := Ideal) (iblk m c 0 t) (iblk m c 1 t) (iblk m c 2 t) (iblk m c 3 t) (iblk m c 4 t) (iblk m c 5 t) (iblk m c 6 t) (ix2 p l) = (logitsOf (midOf (V m c main_arg0) (V m c main_arg1) (V m c main_v6) (V m c main_v7) (V m c main_v2)) (V m c main_v4) (V m c main_v5)) (ix2 P L) := by
  obtain rfl : L = l := Fin.ext h1
  refine (Blocks.logits_apply (iblk m c 0 t) (iblk m c 1 t) (iblk m c 2 t) (iblk m c 3 t) (iblk m c 4 t) (iblk m c 5 t) (iblk m c 6 t) p L).trans ?_
  rw [whole_weights2 m c t, whole_bias2 m c t]
  exact logits_restrict (k0_pay1 (F := Ideal) (iblk m c 0 t) (iblk m c 1 t) (iblk m c 2 t) (iblk m c 3 t) (iblk m c 4 t)) (midOf (V m c main_arg0) (V m c main_arg1) (V m c main_v6) (V m c main_v7) (V m c main_v2)) (V m c main_v4) (V m c main_v5) p P L
    (fun k => hidden_rows m c t p k P k h0 rfl)

/-- The same with the two entries given as indices, the array index's coordinates as a block's rectangle spells them. -/
theorem hidden_at (c : Dev nD) (t : Fin cfg0.N) (j : S1024x1024.Idx) (E : S8192x1024.Idx)
    (h0 : (E 0).val = win0_8.index t (0 : Fin 2) * 1024 + 1 * (j 0).val)
    (h1 : (E 1).val = win0_8.index t (1 : Fin 2) * 1024 + 1 * (j 1).val) :
    k0_pay1 (F := Ideal) (iblk m c 0 t) (iblk m c 1 t) (iblk m c 2 t) (iblk m c 3 t) (iblk m c 4 t) j = (midOf (V m c main_arg0) (V m c main_arg1) (V m c main_v6) (V m c main_v7) (V m c main_v2)) E := by
  obtain ⟨-, -, -, -, -, -, -, -, -, -, -, -, -, -, -, -, e0, e1⟩ := block_indices t
  exact (congrArg (k0_pay1 (F := Ideal) (iblk m c 0 t) (iblk m c 1 t) (iblk m c 2 t) (iblk m c 3 t) (iblk m c 4 t)) (eq_ix2 j)).trans
    ((hidden_rows m c t (j 0) (j 1) (E 0) (E 1) (by omega) (by omega)).trans (congrArg (midOf (V m c main_arg0) (V m c main_arg1) (V m c main_v6) (V m c main_v7) (V m c main_v2)) (eq_ix2 E).symm))

theorem logits_at (c : Dev nD) (t : Fin cfg0.N) (j : S1024x128.Idx) (E : S8192x128.Idx)
    (h0 : (E 0).val = win0_7.index t (0 : Fin 2) * 1024 + 1 * (j 0).val)
    (h1 : (E 1).val = win0_7.index t (1 : Fin 2) * 128 + 1 * (j 1).val) :
    k0_pay2 (F := Ideal) (iblk m c 0 t) (iblk m c 1 t) (iblk m c 2 t) (iblk m c 3 t) (iblk m c 4 t) (iblk m c 5 t) (iblk m c 6 t) j = (logitsOf (midOf (V m c main_arg0) (V m c main_arg1) (V m c main_v6) (V m c main_v7) (V m c main_v2)) (V m c main_v4) (V m c main_v5)) E := by
  obtain ⟨-, -, -, -, -, -, -, -, -, -, -, -, -, -, e0, e1, -, -⟩ := block_indices t
  exact (congrArg (k0_pay2 (F := Ideal) (iblk m c 0 t) (iblk m c 1 t) (iblk m c 2 t) (iblk m c 3 t) (iblk m c 4 t) (iblk m c 5 t) (iblk m c 6 t)) (eq_ix2 j)).trans
    ((logits_rows m c t (j 0) (j 1) (E 0) (E 1) (by omega) (by omega)).trans (congrArg (logitsOf (midOf (V m c main_arg0) (V m c main_arg1) (V m c main_v6) (V m c main_v7) (V m c main_v2)) (V m c main_v4) (V m c main_v5)) (eq_ix2 E).symm))

/-! ## What a point writes back -/

/-- Point `t` writes back its block of the hidden layer of all rows. -/
theorem flushed_mid (c : Dev nD) (t : Fin cfg0.N) :
    (dats m 0 c).flushed 8 t = ((cfg0.win 8).blk t).view.read (Elt Ideal) (midOf (V m c main_arg0) (V m c main_arg1) (V m c main_v6) (V m c main_v7) (V m c main_v2)) := by
  show (cfg0.win 8).cut (grid0.coords t) ((dats m 0 c).after 8 t) = _
  rw [after0_8]
  unfold out0_8
  rw [View.canon_unit_zero zero_offsets]
  simp only [View.ld_unit_zero (S := S1024x1024) zero_offsets, View.ld_unit_zero (S := S1x1024) zero_offsets]
  funext j
  rw [View.read_apply]
  exact (hidden_at m c t ((win0 8).xinj (grid0.coords t) j) (((View.whole main_v8_1).slice ((win0 8).rect t)).emb j) rfl rfl).trans
    (cast_eq _ _).symm

/-- Point `t` writes back its block of the padded logits of all rows. -/
theorem flushed_logits (c : Dev nD) (t : Fin cfg0.N) :
    (dats m 0 c).flushed 7 t = ((cfg0.win 7).blk t).view.read (Elt Ideal) (logitsOf (midOf (V m c main_arg0) (V m c main_arg1) (V m c main_v6) (V m c main_v7) (V m c main_v2)) (V m c main_v4) (V m c main_v5)) := by
  show (cfg0.win 7).cut (grid0.coords t) ((dats m 0 c).after 7 t) = _
  rw [after0_7]
  unfold out0_7
  rw [View.canon_unit_zero zero_offsets]
  simp only [View.ld_unit_zero (S := S1024x1024) zero_offsets, View.ld_unit_zero (S := S1x1024) zero_offsets, View.ld_unit_zero (S := S1024x128) zero_offsets, View.ld_unit_zero (S := S1x128) zero_offsets]
  funext j
  rw [View.read_apply]
  exact (logits_at m c t ((win0 7).xinj (grid0.coords t) j) (((View.whole main_v8_0).slice ((win0 7).rect t)).emb j) rfl rfl).trans
    (cast_eq _ _).symm

/-! ## Every row is in one block -/

theorem mem_block_mid (t : Fin cfg0.N) (i : S8192x1024.Idx) :
    i ∈ ((cfg0.win 8).blk t).view.set ↔ ∀ a : Fin 2, win0_8.index t a * S1024x1024.size a ≤ (i a).val
      ∧ (i a).val < win0_8.index t a * S1024x1024.size a + S1024x1024.size a := by
  show i ∈ ((View.whole main_v8_1).slice (win0_8.rect t)).set ↔ _
  rw [View.set_slice_whole, Rect.mem_set_unit]
  exact Iff.rfl

theorem mem_block_logits (t : Fin cfg0.N) (i : S8192x128.Idx) :
    i ∈ ((cfg0.win 7).blk t).view.set ↔ ∀ a : Fin 2, win0_7.index t a * S1024x128.size a ≤ (i a).val
      ∧ (i a).val < win0_7.index t a * S1024x128.size a + S1024x128.size a := by
  show i ∈ ((View.whole main_v8_0).slice (win0_7.rect t)).set ↔ _
  rw [View.set_slice_whole, Rect.mem_set_unit]
  exact Iff.rfl

/-- Row r of the hidden output is in the block of point r / 1024. -/
theorem cover_mid (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, -, -, -, -, -, -, -, -, -, -, e0, e1⟩ := block_indices t
  refine ⟨t, flush0_8 t, ?_⟩
  rw [mem_block_mid]
  intro a
  match a with
  | ⟨0, _⟩ =>
    show win0_8.index t (0 : Fin 2) * 1024 ≤ (i 0).val ∧ (i 0).val < win0_8.index t (0 : Fin 2) * 1024 + 1024
    omega
  | ⟨1, _⟩ =>
    show win0_8.index t (1 : Fin 2) * 1024 ≤ (i 1).val ∧ (i 1).val < win0_8.index t (1 : Fin 2) * 1024 + 1024
    omega

/-- The same for the padded logits output. -/
theorem cover_logits (i : S8192x128.Idx) :
    ∃ t : Fin cfg0.N, (cfg0.win 7).flush t = true ∧ i ∈ ((cfg0.win 7).blk t).view.set := by
  have hi0 : (i 0).val < 8192 := (i 0).isLt
  have hi1 : (i 1).val < 128 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, -, -, -, -, -, -, -, -, e0, e1, -, -⟩ := block_indices t
  refine ⟨t, flush0_7 t, ?_⟩
  rw [mem_block_logits]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 128 ≤ (i 1).val ∧ (i 1).val < win0_7.index t (1 : Fin 2) * 128 + 128
    omega

/-! ## The arrays after the run -/

/-- The hidden output after the run is the hidden layer of all rows, -/
theorem final_mid (c : Dev nD) : (dats m 0 c).arrAt 8 cfg0.N = (midOf (V m c main_arg0) (V m c main_arg1) (V m c main_v6) (V m c main_v7) (V m c main_v2)) :=
  (dats m 0 c).arrAt_eq_of_cover 8 _ (fun t _ => flushed_mid m c t) cover_mid

/-- and the padded logits output is the padded logits of all rows. -/
theorem final_logits (c : Dev nD) : (dats m 0 c).arrAt 7 cfg0.N = (logitsOf (midOf (V m c main_arg0) (V m c main_arg1) (V m c main_v6) (V m c main_v7) (V m c main_v2)) (V m c main_v4) (V m c main_v5)) :=
  (dats m 0 c).arrAt_eq_of_cover 7 _ (fun t _ => flushed_logits m c t) cover_logits

/-- The host's last line keeps column 0 of the padded logits: the one logit per row, as a function of the arguments. -/
theorem logit_result (c : Dev nD) :
    Pipeline.afterTail₀ cfgs (dats m) 0 (V0 m) [hostOps1] c main_v9
      = logitG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8_0) = (logitsOf (midOf (V m c main_arg0) (V m c main_arg1) (V m c main_v6) (V m c main_v7) (V m c main_v2)) (V m c main_v4) (V m c main_v5)) :=
    (Pipeline.withArrays_arr spec0 launch0.win.arr_inj c _ _ 7).trans (final_logits m c)
  rw [e, logits_col0 _ (V m c main_v4) (V m c main_v5) (m ((c : Thread nD τ).loc main_arg4)) (m ((c : Thread nD τ).loc main_arg5))
    (Arrays.weights2_col0 m c) (Arrays.bias2_00 m c), Arrays.mid_of_arguments]
  rfl

/-! ## The run, read -/

/-- Every weakly fair execution terminates with the logits result at the one logit per row, the hidden result at the
    hidden layer, both as functions of the arguments, and the arguments unchanged. -/
theorem run : θ_run defs (onTc (τ := τ) (main (F := Ideal))) ⟨m, fun _ => 0, ρ⟩ fun r => ∀ c : Dev nD,
      r.2.mem ((c : Thread nD τ).loc main_v9) = logitG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v8_1) = midG (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).2 main_v9 (Pipeline.mem_restRefs_of main_v9 (by decide) (by decide))).trans (logit_result m c),
      ((h c).1 8).trans ((final_mid m c).trans (Arrays.mid_of_arguments m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.ReferenceBlock.lean ====
/-
  The idealized reference's body on one block of 512 rows, read at an entry.

  The stored hidden block is the rectified sum of the two products and the bias row; the stored logits block is the
  product of that hidden block with the padded second-layer weights plus the padded bias row.
-/
import proofs.«145618_g2000403079759722_pallasbulk_259_2_alg».proof.Proof.Gen.ReferenceIdeal.Skeleton
import proofs.«145618_g2000403079759722_pallasbulk_259_2_alg».proof.Proof.TwoLayer
import Idealize.ShloMosaic.Lib.Pipeline.Value

noncomputable section

namespace Cert.ReferenceIdeal.Blocks

open Cert.ReferenceIdeal Cert.ReferenceIdeal.Gen Idealize.ShloMosaic Idealize.ShloMosaic.ValueIdx Cert.TwoLayer

/-- The hidden block at row `p`, column `q` (the body loads the bias row first). -/
theorem hidden_apply (x4 : Vec Ideal S1x1024 .f32) (x0 : Vec Ideal S512x1024 .f32) (x2 : Vec Ideal S1024x1024 .f32)
    (x1 : Vec Ideal S512x1024 .f32) (x3 : Vec Ideal S1024x1024 .f32) (p : Fin 512) (q : Fin 1024) :
    k0_pay1 (F := Ideal) x4 x0 x2 x1 x3 (ix2 p q)
      = leaky ((∑ k : Fin 1024, x0 (ix2 p k) * x2 (ix2 k q)) + (∑ k : Fin 1024, x1 (ix2 p k) * x3 (ix2 k q))
          + x4 (ix2 (0 : Fin 1) q)) := by
  unfold k0_pay1
  simp only [shapeCast_self]
  exact hidden_block_apply (φ₁ := .f32) (φ₂ := .f32) _ rfl none x0 x1 x2 x3 x4 _ p q

/-- The logits block at row `p`, padded column `l`, over the hidden block. -/
theorem logits_apply (x4 : Vec Ideal S1x1024 .f32) (x6 : Vec Ideal S1x128 .f32) (x0 : Vec Ideal S512x1024 .f32)
    (x2 : Vec Ideal S1024x1024 .f32) (x1 : Vec Ideal S512x1024 .f32) (x3 : Vec Ideal S1024x1024 .f32)
    (x5 : Vec Ideal S1024x128 .f32) (p : Fin 512) (l : Fin 128) :
    k0_pay2 (F := Ideal) x4 x6 x0 x2 x1 x3 x5 (ix2 p l)
      = (∑ k : Fin 1024, k0_pay1 (F := Ideal) x4 x0 x2 x1 x3 (ix2 p k) * x5 (ix2 k l)) + x6 (ix2 (0 : Fin 1) l) := by
  unfold k0_pay2
  simp only [shapeCast_self]
  exact output_block_apply (φ₁ := .f32) (φ₂ := .f32) _ rfl none (k0_pay1 (F := Ideal) x4 x0 x2 x1 x3) x5 x6 _ p l

end Cert.ReferenceIdeal.Blocks

end
-- ==== Proof.ReferenceArrays.lean ====
/-
  What the idealized reference's launch finds in its weight and bias arrays, as functions of the arguments.

  Before the launch the host pads the first-layer weights by nothing and cuts the two halves; pads the first bias by
  nothing; pads the second-layer weights and bias with 127 more columns. So: the two halves are rows 0..1023 and
  1024..2047 of the weight argument, the bias row is the bias argument, and column 0 of the padded second layer is the
  second-layer argument.
-/
import proofs.«145618_g2000403079759722_pallasbulk_259_2_alg».proof.Proof.Gen.ReferenceIdeal.Frame
import proofs.«145618_g2000403079759722_pallasbulk_259_2_alg».proof.Proof.TwoLayer
import proofs.«145618_g2000403079759722_pallasbulk_259_2_alg».proof.Proof.LibPadReads
import Idealize.ShloMosaic.Lib.StableHlo.Run

noncomputable section

namespace Cert.ReferenceIdeal.Arrays

open Cert.ReferenceIdeal Cert.ReferenceIdeal.Gen Idealize.ShloMosaic Idealize.ShloMosaic.TcCoe Idealize.SL.Sem
open Idealize.ShloMosaic.ValueIdx Cert.TwoLayer Cert.LibPadReads

variable (m : (ℓ : Loc nD τ sig) → Buf (Elt Ideal) ℓ)

/-- The weight half that multiplies Z: rows 0 .. 1023 of the first-layer weights. -/
theorem weights_upper (c : Dev nD) :
    (V m c main_v4 : S1024x1024.Idx → EReal) = upperHalf (m ((c : Thread nD τ).loc main_arg2)) := by
  have e : (V m c main_v4 : S1024x1024.Idx → EReal)
      = extractStridedSlice S1024x1024 ![0, 0] (pad S2048x1024 ![0, 0] ![0, 0] ![0, 0]
          (m ((c : Thread nD τ).loc main_arg2)) (sitofp (F := Ideal) .f32 (constantI S_ 32 0#32)) pads_S2048x1024_S2048x1024_000_000 h_S_)
          slices_S2048x1024_S1024x1024_0_0 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results; rfl
  rw [e]
  funext i
  obtain ⟨p, q, rfl⟩ : ∃ (p q : Fin 1024), i = ix2 p q := ⟨i 0, i 1, eq_ix2 i⟩
  rw [slice2_axis0_apply 0 _ slices_S2048x1024_S1024x1024_0_0 p q ⟨p.val, by have := p.isLt; omega⟩ (by simp), pad_zero_widths]
  rfl

/-- The weight half that multiplies R: rows 1024 .. 2047. -/
theorem weights_lower (c : Dev nD) :
    (V m c main_v5 : S1024x1024.Idx → EReal) = lowerHalf (m ((c : Thread nD τ).loc main_arg2)) := by
  have e : (V m c main_v5 : S1024x1024.Idx → EReal)
      = extractStridedSlice S1024x1024 ![1024, 0] (pad S2048x1024 ![0, 0] ![0, 0] ![0, 0]
          (m ((c : Thread nD τ).loc main_arg2)) (sitofp (F := Ideal) .f32 (constantI S_ 32 0#32)) pads_S2048x1024_S2048x1024_000_000 h_S_)
          slices_S2048x1024_S1024x1024_1024_0 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results; rfl
  rw [e]
  funext i
  obtain ⟨p, q, rfl⟩ : ∃ (p q : Fin 1024), i = ix2 p q := ⟨i 0, i 1, eq_ix2 i⟩
  rw [slice2_axis0_apply 1024 _ slices_S2048x1024_S1024x1024_1024_0 p q ⟨1024 + p.val, by have := p.isLt; omega⟩ rfl, pad_zero_widths]
  rfl

/-- The first bias row is the bias argument. -/
theorem bias_row (c : Dev nD) : (V m c main_v1 : S1x1024.Idx → EReal) = m ((c : Thread nD τ).loc main_arg3) := by
  have e : (V m c main_v1 : S1x1024.Idx → EReal)
      = pad S1x1024 ![0, 0] ![0, 0] ![0, 0] (m ((c : Thread nD τ).loc main_arg3)) (sitofp (F := Ideal) .f32 (constantI S_ 32 0#32))
          pads_S1x1024_S1x1024_000_000 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results; rfl
  rw [e, pad_zero_widths]

/-- Column 0 of the padded second-layer weights is the second-layer argument. -/
theorem weights2_col0 (c : Dev nD) (k : Fin 1024) :
    (V m c main_v2 : S1024x128.Idx → EReal) (ix2 k (0 : Fin 128)) = m ((c : Thread nD τ).loc main_arg4) (ix2 k (0 : Fin 1)) := by
  have e : (V m c main_v2 : S1024x128.Idx → EReal)
      = pad S1024x128 ![0, 0] ![0, 127] ![0, 0] (m ((c : Thread nD τ).loc main_arg4))
          (sitofp (F := Ideal) .f32 (constantI S_ 32 0#32)) pads_S1024x1_S1024x128_000_01270 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results; rfl
  rw [e]
  exact pad_high_cols_apply _ _ pads_S1024x1_S1024x128_000_01270 h_S_ k (0 : Fin 1) (0 : Fin 128) rfl

/-- Entry (0, 0) of the padded second bias is the second bias argument. -/
theorem bias2_00 (c : Dev nD) :
    (V m c main_v3 : S1x128.Idx → EReal) (ix2 (0 : Fin 1) (0 : Fin 128)) = m ((c : Thread nD τ).loc main_arg5) (ix2 (0 : Fin 1) (0 : Fin 1)) := by
  have e : (V m c main_v3 : S1x128.Idx → EReal)
      = pad S1x128 ![0, 0] ![0, 127] ![0, 0] (m ((c : Thread nD τ).loc main_arg5))
          (sitofp (F := Ideal) .f32 (constantI S_ 32 0#32)) pads_S1x1_S1x128_000_01270 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
    after_results; rfl
  rw [e]
  exact pad_high_cols_apply _ _ pads_S1x1_S1x128_000_01270 h_S_ (0 : Fin 1) (0 : Fin 1) (0 : Fin 128) rfl

/-- So the hidden layer over the arrays the launch finds is the hidden layer of the arguments. -/
theorem mid_of_arguments (c : Dev nD) :
    midOf (V m c main_arg0) (V m c main_arg1) (V m c main_v4) (V m c main_v5) (V m c main_v1)
      = midG (m ((c : Thread nD τ).loc main_arg0)) (m ((c : Thread nD τ).loc main_arg1)) (m ((c : Thread nD τ).loc main_arg2))
          (m ((c : Thread nD τ).loc main_arg3)) := by
  rw [V_main_arg0, V_main_arg1, weights_upper, weights_lower, bias_row]
  rfl

end Cert.ReferenceIdeal.Arrays

end
-- ==== Proof.ReferenceResult.lean ====
/-
  The idealized reference's two result arrays after its run, as functions of the six arguments.

  Grid point t of 16 handles rows 512 t .. 512 t + 511: it is handed those rows of Z and R and the whole weight and bias
  arrays, and writes back those rows of the hidden layer and of the padded logits. Every row of the two outputs lies in
  exactly one such block, so after the run the hidden output is the hidden layer of all rows and the padded logits output
  is the logits of all rows; the host then keeps column 0 of the padded logits.
-/
import proofs.«145618_g2000403079759722_pallasbulk_259_2_alg».proof.Proof.Gen.ReferenceIdeal.Frame
import proofs.«145618_g2000403079759722_pallasbulk_259_2_alg».proof.Proof.ReferenceBlock
import proofs.«145618_g2000403079759722_pallasbulk_259_2_alg».proof.Proof.ReferenceArrays
import Idealize.ShloMosaic.Lib.Pipeline.Value
import Idealize.ShloMosaic.Lib.StableHlo.Run

set_option maxRecDepth 16384

noncomputable section

namespace Cert.ReferenceIdeal.Result

open Cert.ReferenceIdeal Cert.ReferenceIdeal.Gen Idealize.ShloMosaic Idealize.ShloMosaic.TcCoe Idealize.SL.Sem
open Idealize.ShloMosaic.Pipeline (Dat)
open Idealize.ShloMosaic.ValueIdx Cert.TwoLayer

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the row-blocked windows (Z, R, both outputs) are at block row `t`, column
    block 0; the weight and bias windows are always at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The blocks a point is handed -/

/-- Row `p` of point `t`'s block of Z is row `512 t + p` of Z. -/
theorem rows_Z (c : Dev nD) (t : Fin cfg0.N) (p : Fin 512) (k : Fin 1024) (i : S8192x1024.Idx)
    (h0 : (i 0).val = t.val * 512 + p.val) (h1 : (i 1).val = k.val) :
    iblk m c 0 t (ix2 p k) = V m c main_arg0 i := by
  obtain ⟨e0, e1, -, -, -, -, -, -, -, -, -, -, -, -, -, -, -, -⟩ := block_indices t
  show V m c main_arg0 (((cfg0.win 0).blk t).view.emb (ix2 p k)) = V m c main_arg0 i
  refine congrArg (V m c main_arg0) (funext fun a => Fin.ext ?_)
  match a with
  | ⟨0, _⟩ => show win0_0.index t (0 : Fin 2) * 512 + 1 * p.val = (i 0).val; omega
  | ⟨1, _⟩ => show win0_0.index t (1 : Fin 2) * 1024 + 1 * k.val = (i 1).val; omega

/-- The same for R. -/
theorem rows_R (c : Dev nD) (t : Fin cfg0.N) (p : Fin 512) (k : Fin 1024) (i : S8192x1024.Idx)
    (h0 : (i 0).val = t.val * 512 + p.val) (h1 : (i 1).val = k.val) :
    iblk m c 1 t (ix2 p k) = V m c main_arg1 i := by
  obtain ⟨-, -, e0, e1, -, -, -, -, -, -, -, -, -, -, -, -, -, -⟩ := block_indices t
  show V m c main_arg1 (((cfg0.win 1).blk t).view.emb (ix2 p k)) = V m c main_arg1 i
  refine congrArg (V m c main_arg1) (funext fun a => Fin.ext ?_)
  match a with
  | ⟨0, _⟩ => show win0_1.index t (0 : Fin 2) * 512 + 1 * p.val = (i 0).val; omega
  | ⟨1, _⟩ => show win0_1.index t (1 : Fin 2) * 1024 + 1 * k.val = (i 1).val; omega

/-- Every point is handed the whole upper weight half, -/
theorem whole_upper (c : Dev nD) (t : Fin cfg0.N) : (iblk m c 2 t : S1024x1024.Idx → EReal) = V m c main_v4 := by
  obtain ⟨-, -, -, -, e0, e1, -, -, -, -, -, -, -, -, -, -, -, -⟩ := block_indices t
  funext y
  show V m c main_v4 (((cfg0.win 2).blk t).view.emb y) = V m c main_v4 y
  refine congrArg (V m c main_v4) (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- the whole lower weight half, -/
theorem whole_lower (c : Dev nD) (t : Fin cfg0.N) : (iblk m c 3 t : S1024x1024.Idx → EReal) = V m c main_v5 := by
  obtain ⟨-, -, -, -, -, -, e0, e1, -, -, -, -, -, -, -, -, -, -⟩ := block_indices t
  funext y
  show V m c main_v5 (((cfg0.win 3).blk t).view.emb y) = V m c main_v5 y
  refine congrArg (V m c main_v5) (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- the whole first bias row, -/
theorem whole_bias (c : Dev nD) (t : Fin cfg0.N) : (iblk m c 4 t : S1x1024.Idx → EReal) = V m c main_v1 := by
  obtain ⟨-, -, -, -, -, -, -, -, e0, e1, -, -, -, -, -, -, -, -⟩ := block_indices t
  funext y
  show V m c main_v1 (((cfg0.win 4).blk t).view.emb y) = V m c main_v1 y
  refine congrArg (V m c main_v1) (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- the whole padded second-layer weights, -/
theorem whole_weights2 (c : Dev nD) (t : Fin cfg0.N) : (iblk m c 5 t : S1024x128.Idx → EReal) = V m c main_v2 := by
  obtain ⟨-, -, -, -, -, -, -, -, -, -, e0, e1, -, -, -, -, -, -⟩ := block_indices t
  funext y
  show V m c main_v2 (((cfg0.win 5).blk t).view.emb y) = V m c main_v2 y
  refine congrArg (V m c main_v2) (funext fun a => Fin.ext ?_)
  match a with
  | ⟨0, _⟩ => show win0_5.index t (0 : Fin 2) * 1024 + 1 * (y 0).val = (y 0).val; omega
  | ⟨1, _⟩ => show win0_5.index t (1 : Fin 2) * 128 + 1 * (y 1).val = (y 1).val; omega

/-- and the whole padded second bias row. -/
theorem whole_bias2 (c : Dev nD) (t : Fin cfg0.N) : (iblk m c 6 t : S1x128.Idx → EReal) = V m c main_v3 := by
  obtain ⟨-, -, -, -, -, -, -, -, -, -, -, -, e0, e1, -, -, -, -⟩ := block_indices t
  funext y
  show V m c main_v3 (((cfg0.win 6).blk t).view.emb y) = V m c main_v3 y
  refine congrArg (V m c main_v3) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-! ## What a point computes is a block of the whole arrays -/

/-- Entry (p, q) of the hidden block point `t` computes is entry (512 t + p, q) of the hidden layer of all rows. -/
theorem hidden_rows (c : Dev nD) (t : Fin cfg0.N) (p : Fin 512) (q : Fin 1024) (P : Fin 8192) (Q : Fin 1024)
    (h0 : P.val = t.val * 512 + p.val) (h1 : Q.val = q.val) :
    k0_pay1 (F := Ideal) (iblk m c 4 t) (iblk m c 0 t) (iblk m c 2 t) (iblk m c 1 t) (iblk m c 3 t) (ix2 p q) = (midOf (V m c main_arg0) (V m c main_arg1) (V m c main_v4) (V m c main_v5) (V m c main_v1)) (ix2 P Q) := by
  obtain rfl : Q = q := Fin.ext h1
  refine (Blocks.hidden_apply (iblk m c 4 t) (iblk m c 0 t) (iblk m c 2 t) (iblk m c 1 t) (iblk m c 3 t) p Q).trans ?_
  rw [whole_upper m c t, whole_lower m c t, whole_bias m c t]
  exact hidden_restrict (iblk m c 0 t) (iblk m c 1 t) (V m c main_arg0) (V m c main_arg1) (V m c main_v4) (V m c main_v5) (V m c main_v1) p P Q
    (fun k => rows_Z m c t p k (ix2 P k) h0 rfl) (fun k => rows_R m c t p k (ix2 P k) h0 rfl)

/-- Entry (p, l) of the logits block point `t` computes is entry (512 t + p, l) of the padded logits of all rows. -/
theorem logits_rows (c : Dev nD) (t : Fin cfg0.N) (p : Fin 512) (l : Fin 128) (P : Fin 8192) (L : Fin 128)
    (h0 : P.val = t.val * 512 + p.val) (h1 : L.val = l.val) :
    k0_pay2 (F := Ideal) (iblk m c 4 t) (iblk m c 6 t) (iblk m c 0 t) (iblk m c 2 t) (iblk m c 1 t) (iblk m c 3 t) (iblk m c 5 t) (ix2 p l) = (logitsOf (midOf (V m c main_arg0) (V m c main_arg1) (V m c main_v4) (V m c main_v5) (V m c main_v1)) (V m c main_v2) (V m c main_v3)) (ix2 P L) := by
  obtain rfl : L = l := Fin.ext h1
  refine (Blocks.logits_apply (iblk m c 4 t) (iblk m c 6 t) (iblk m c 0 t) (iblk m c 2 t) (iblk m c 1 t) (iblk m c 3 t) (iblk m c 5 t) p L).trans ?_
  rw [whole_weights2 m c t, whole_bias2 m c t]
  exact logits_restrict (k0_pay1 (F := Ideal) (iblk m c 4 t) (iblk m c 0 t) (iblk m c 2 t) (iblk m c 1 t) (iblk m c 3 t)) (midOf (V m c main_arg0) (V m c main_arg1) (V m c main_v4) (V m c main_v5) (V m c main_v1)) (V m c main_v2) (V m c main_v3) p P L
    (fun k => hidden_rows m c t p k P k h0 rfl)

/-- The same with the two entries given as indices, the array index's coordinates as a block's rectangle spells them. -/
theorem hidden_at (c : Dev nD) (t : Fin cfg0.N) (j : S512x1024.Idx) (E : S8192x1024.Idx)
    (h0 : (E 0).val = win0_8.index t (0 : Fin 2) * 512 + 1 * (j 0).val)
    (h1 : (E 1).val = win0_8.index t (1 : Fin 2) * 1024 + 1 * (j 1).val) :
    k0_pay1 (F := Ideal) (iblk m c 4 t) (iblk m c 0 t) (iblk m c 2 t) (iblk m c 1 t) (iblk m c 3 t) j = (midOf (V m c main_arg0) (V m c main_arg1) (V m c main_v4) (V m c main_v5) (V m c main_v1)) E := by
  obtain ⟨-, -, -, -, -, -, -, -, -, -, -, -, -, -, -, -, e0, e1⟩ := block_indices t
  exact (congrArg (k0_pay1 (F := Ideal) (iblk m c 4 t) (iblk m c 0 t) (iblk m c 2 t) (iblk m c 1 t) (iblk m c 3 t)) (eq_ix2 j)).trans
    ((hidden_rows m c t (j 0) (j 1) (E 0) (E 1) (by omega) (by omega)).trans (congrArg (midOf (V m c main_arg0) (V m c main_arg1) (V m c main_v4) (V m c main_v5) (V m c main_v1)) (eq_ix2 E).symm))

theorem logits_at (c : Dev nD) (t : Fin cfg0.N) (j : S512x128.Idx) (E : S8192x128.Idx)
    (h0 : (E 0).val = win0_7.index t (0 : Fin 2) * 512 + 1 * (j 0).val)
    (h1 : (E 1).val = win0_7.index t (1 : Fin 2) * 128 + 1 * (j 1).val) :
    k0_pay2 (F := Ideal) (iblk m c 4 t) (iblk m c 6 t) (iblk m c 0 t) (iblk m c 2 t) (iblk m c 1 t) (iblk m c 3 t) (iblk m c 5 t) j = (logitsOf (midOf (V m c main_arg0) (V m c main_arg1) (V m c main_v4) (V m c main_v5) (V m c main_v1)) (V m c main_v2) (V m c main_v3)) E := by
  obtain ⟨-, -, -, -, -, -, -, -, -, -, -, -, -, -, e0, e1, -, -⟩ := block_indices t
  exact (congrArg (k0_pay2 (F := Ideal) (iblk m c 4 t) (iblk m c 6 t) (iblk m c 0 t) (iblk m c 2 t) (iblk m c 1 t) (iblk m c 3 t) (iblk m c 5 t)) (eq_ix2 j)).trans
    ((logits_rows m c t (j 0) (j 1) (E 0) (E 1) (by omega) (by omega)).trans (congrArg (logitsOf (midOf (V m c main_arg0) (V m c main_arg1) (V m c main_v4) (V m c main_v5) (V m c main_v1)) (V m c main_v2) (V m c main_v3)) (eq_ix2 E).symm))

/-! ## What a point writes back -/

/-- Point `t` writes back its block of the hidden layer of all rows. -/
theorem flushed_mid (c : Dev nD) (t : Fin cfg0.N) :
    (dats m 0 c).flushed 8 t = ((cfg0.win 8).blk t).view.read (Elt Ideal) (midOf (V m c main_arg0) (V m c main_arg1) (V m c main_v4) (V m c main_v5) (V m c main_v1)) := by
  show (cfg0.win 8).cut (grid0.coords t) ((dats m 0 c).after 8 t) = _
  rw [after0_8]
  unfold out0_8
  rw [View.canon_unit_zero zero_offsets]
  simp only [View.ld_unit_zero (S := S1x1024) zero_offsets, View.ld_unit_zero (S := S512x1024) zero_offsets, View.ld_unit_zero (S := S1024x1024) zero_offsets]
  funext j
  rw [View.read_apply]
  exact (hidden_at m c t ((win0 8).xinj (grid0.coords t) j) (((View.whole main_v6_1).slice ((win0 8).rect t)).emb j) rfl rfl).trans
    (cast_eq _ _).symm

/-- Point `t` writes back its block of the padded logits of all rows. -/
theorem flushed_logits (c : Dev nD) (t : Fin cfg0.N) :
    (dats m 0 c).flushed 7 t = ((cfg0.win 7).blk t).view.read (Elt Ideal) (logitsOf (midOf (V m c main_arg0) (V m c main_arg1) (V m c main_v4) (V m c main_v5) (V m c main_v1)) (V m c main_v2) (V m c main_v3)) := by
  show (cfg0.win 7).cut (grid0.coords t) ((dats m 0 c).after 7 t) = _
  rw [after0_7]
  unfold out0_7
  rw [View.canon_unit_zero zero_offsets]
  simp only [View.ld_unit_zero (S := S1x1024) zero_offsets, View.ld_unit_zero (S := S1x128) zero_offsets, View.ld_unit_zero (S := S512x1024) zero_offsets, View.ld_unit_zero (S := S1024x1024) zero_offsets, View.ld_unit_zero (S := S1024x128) zero_offsets]
  funext j
  rw [View.read_apply]
  exact (logits_at m c t ((win0 7).xinj (grid0.coords t) j) (((View.whole main_v6_0).slice ((win0 7).rect t)).emb j) rfl rfl).trans
    (cast_eq _ _).symm

/-! ## Every row is in one block -/

theorem mem_block_mid (t : Fin cfg0.N) (i : S8192x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v6_1).slice (win0_8.rect t)).set ↔ _
  rw [View.set_slice_whole, Rect.mem_set_unit]
  exact Iff.rfl

theorem mem_block_logits (t : Fin cfg0.N) (i : S8192x128.Idx) :
    i ∈ ((cfg0.win 7).blk t).view.set ↔ ∀ a : Fin 2, win0_7.index t a * S512x128.size a ≤ (i a).val
      ∧ (i a).val < win0_7.index t a * S512x128.size a + S512x128.size a := by
  show i ∈ ((View.whole main_v6_0).slice (win0_7.rect t)).set ↔ _
  rw [View.set_slice_whole, Rect.mem_set_unit]
  exact Iff.rfl

/-- Row r of the hidden output is in the block of point r / 512. -/
theorem cover_mid (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by omega⟩, rfl⟩
  obtain ⟨-, -, -, -, -, -, -, -, -, -, -, -, -, -, -, -, e0, e1⟩ := block_indices t
  refine ⟨t, flush0_8 t, ?_⟩
  rw [mem_block_mid]
  intro a
  match a with
  | ⟨0, _⟩ =>
    show win0_8.index t (0 : Fin 2) * 512 ≤ (i 0).val ∧ (i 0).val < win0_8.index t (0 : Fin 2) * 512 + 512
    omega
  | ⟨1, _⟩ =>
    show win0_8.index t (1 : Fin 2) * 1024 ≤ (i 1).val ∧ (i 1).val < win0_8.index t (1 : Fin 2) * 1024 + 1024
    omega

/-- The same for the padded logits output. -/
theorem cover_logits (i : S8192x128.Idx) :
    ∃ t : Fin cfg0.N, (cfg0.win 7).flush t = true ∧ i ∈ ((cfg0.win 7).blk t).view.set := by
  have hi0 : (i 0).val < 8192 := (i 0).isLt
  have hi1 : (i 1).val < 128 := (i 1).isLt
  have hN : cfg0.N = 16 := N_0
  obtain ⟨t, ht⟩ : ∃ t : Fin cfg0.N, t.val = (i 0).val / 512 := ⟨⟨(i 0).val / 512, by omega⟩, rfl⟩
  obtain ⟨-, -, -, -, -, -, -, -, -, -, -, -, -, -, e0, e1, -, -⟩ := block_indices t
  refine ⟨t, flush0_7 t, ?_⟩
  rw [mem_block_logits]
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 128 ≤ (i 1).val ∧ (i 1).val < win0_7.index t (1 : Fin 2) * 128 + 128
    omega

/-! ## The arrays after the run -/

/-- The hidden output after the run is the hidden layer of all rows, -/
theorem final_mid (c : Dev nD) : (dats m 0 c).arrAt 8 cfg0.N = (midOf (V m c main_arg0) (V m c main_arg1) (V m c main_v4) (V m c main_v5) (V m c main_v1)) :=
  (dats m 0 c).arrAt_eq_of_cover 8 _ (fun t _ => flushed_mid m c t) cover_mid

/-- and the padded logits output is the padded logits of all rows. -/
theorem final_logits (c : Dev nD) : (dats m 0 c).arrAt 7 cfg0.N = (logitsOf (midOf (V m c main_arg0) (V m c main_arg1) (V m c main_v4) (V m c main_v5) (V m c main_v1)) (V m c main_v2) (V m c main_v3)) :=
  (dats m 0 c).arrAt_eq_of_cover 7 _ (fun t _ => flushed_logits m c t) cover_logits

/-- The host's last line keeps column 0 of the padded logits: the one logit per row, as a function of the arguments. -/
theorem logit_result (c : Dev nD) :
    Pipeline.afterTail₀ cfgs (dats m) 0 (V0 m) [hostOps1] c main_v7
      = logitG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6_0) = (logitsOf (midOf (V m c main_arg0) (V m c main_arg1) (V m c main_v4) (V m c main_v5) (V m c main_v1)) (V m c main_v2) (V m c main_v3)) :=
    (Pipeline.withArrays_arr spec0 launch0.win.arr_inj c _ _ 7).trans (final_logits m c)
  rw [e, logits_col0 _ (V m c main_v2) (V m c main_v3) (m ((c : Thread nD τ).loc main_arg4)) (m ((c : Thread nD τ).loc main_arg5))
    (Arrays.weights2_col0 m c) (Arrays.bias2_00 m c), Arrays.mid_of_arguments]
  rfl

/-! ## The run, read -/

/-- Every weakly fair execution terminates with the logits result at the one logit per row, the hidden result at the
    hidden layer, both as functions of the arguments, and the arguments unchanged. -/
theorem run : θ_run defs (onTc (τ := τ) (main (F := Ideal))) ⟨m, fun _ => 0, ρ⟩ fun r => ∀ c : Dev nD,
      r.2.mem ((c : Thread nD τ).loc main_v7) = logitG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v6_1) = midG (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).2 main_v7 (Pipeline.mem_restRefs_of main_v7 (by decide) (by decide))).trans (logit_result m c),
      ((h c).1 8).trans ((final_mid m c).trans (Arrays.mid_of_arguments m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.ReferenceIdeal.Result

end
-- ==== Proof.lean ====
/-
  A two-layer discriminator head, tiled two ways.

  Both programs compute, for 8192 rows Z(r, ·), R(r, ·) of 1024 features each, the hidden layer
      mid(r, c) = leaky( sum_k Z(r,k) W1(k,c) + sum_k R(r,k) W1(1024 + k, c) + b1(c) ),   leaky(h) = h if h >= 0 else 0.2f h,
  and the logit  out(r) = sum_k mid(r,k) W2(k) + b2.  The kernel sweeps the rows in 8 blocks of 1024 and rounds its product
  operands to bf16; the reference sweeps them in 16 blocks of 512 and does not round. On the extended reals a change of
  float format is the identity and a product into a zero accumulator is a plain finite sum, so each program's block at a
  grid point is the restriction to that point's rows of the SAME two whole-array functions of the six arguments
  (TwoLayer.lean: `midG`, `logitG`) — the sums are the same sums in the same grouping, so no law of arithmetic is used and
  the finiteness of the inputs is never needed. The blocks tile the rows, so both programs end with those functions in
  their results.

  The three frames are the generated frame runs; the idealization changed nothing, so `preserves` is trivial.
-/
import proofs.«145618_g2000403079759722_pallasbulk_259_2_alg».proof.Defs
import proofs.«145618_g2000403079759722_pallasbulk_259_2_alg».proof.Proof.Gen.Kernel
import proofs.«145618_g2000403079759722_pallasbulk_259_2_alg».proof.Proof.Gen.Kernel.Skeleton
import proofs.«145618_g2000403079759722_pallasbulk_259_2_alg».proof.Proof.Gen.Kernel.Launch
import proofs.«145618_g2000403079759722_pallasbulk_259_2_alg».proof.Proof.Gen.Kernel.Points
import proofs.«145618_g2000403079759722_pallasbulk_259_2_alg».proof.Proof.Gen.Kernel.Frame
import proofs.«145618_g2000403079759722_pallasbulk_259_2_alg».proof.Proof.Gen.KernelIdeal
import proofs.«145618_g2000403079759722_pallasbulk_259_2_alg».proof.Proof.Gen.KernelIdeal.Skeleton
import proofs.«145618_g2000403079759722_pallasbulk_259_2_alg».proof.Proof.Gen.KernelIdeal.Launch
import proofs.«145618_g2000403079759722_pallasbulk_259_2_alg».proof.Proof.Gen.KernelIdeal.Points
import proofs.«145618_g2000403079759722_pallasbulk_259_2_alg».proof.Proof.Gen.KernelIdeal.Frame
import proofs.«145618_g2000403079759722_pallasbulk_259_2_alg».proof.Proof.Gen.ReferenceIdeal
import proofs.«145618_g2000403079759722_pallasbulk_259_2_alg».proof.Proof.Gen.ReferenceIdeal.Skeleton
import proofs.«145618_g2000403079759722_pallasbulk_259_2_alg».proof.Proof.Gen.ReferenceIdeal.Launch
import proofs.«145618_g2000403079759722_pallasbulk_259_2_alg».proof.Proof.Gen.ReferenceIdeal.Points
import proofs.«145618_g2000403079759722_pallasbulk_259_2_alg».proof.Proof.Gen.ReferenceIdeal.Frame
import proofs.«145618_g2000403079759722_pallasbulk_259_2_alg».proof.Proof.Gen.Pre_finite_inputs
import proofs.«145618_g2000403079759722_pallasbulk_259_2_alg».proof.Proof.KernelResult
import proofs.«145618_g2000403079759722_pallasbulk_259_2_alg».proof.Proof.ReferenceResult
import Idealize.ShloMosaic.Adequacy
import Idealize.ShloMosaic.Init

noncomputable section

namespace Cert.Proof

open Idealize.ShloMosaic Idealize.SL.Sem Cert.TwoLayer

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

/-- Run from memories that agree on the six arguments, the two idealized programs end with the same logits and the same
    hidden layer: each is the one function of the arguments, `logitG` and `midG`. -/
theorem algebraic : Cert.algebraic_KernelIdeal_ReferenceIdeal := by
  intro m ρ m' ρ' _ hagree
  refine ⟨fun c => logitG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => midG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun r h c => ?_) (Cert.ReferenceIdeal.Result.run m' ρ')
  obtain ⟨h0, h1, h2, h3, h4, h5, h6, h7⟩ := h c
  obtain ⟨a0, a1, a2, a3, a4, a5⟩ := hagree c
  refine ⟨h0.trans ?_, h1.trans ?_, h2, h3, h4, h5, h6, h7⟩
  · rw [a0, a1, a2, a3, a4, a5]
  · rw [a0, a1, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
